-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its RESULT named.

  The program is two launches of the dense layer among two stretches of host operations. Its run is the chain of four
  segments: after the first stretch the buffers hold `W1`, after the first launch `W2` (the launch's arrays at what its
  write-backs leave, everything else untouched), after the second stretch `W3`, after the second launch `W4`. Every
  weakly fair execution terminates, without a fault, in a state whose unscoped buffers are `W4`'s: so the result buffer
  holds `W4` at the result's reference, and the eight arguments hold what they were launched with.
-/
import proofs.«130161_j21337397527225_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents `W4` and the argument arrays as launched. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.Layer.lean ====
/-
  One layer of mean-aggregated message passing, as a function of whole arrays, index by index, on the extended reals.

  Row `r` of the aggregate is divided by the row's divisor `d r`, multiplied with the transpose of `Wl`, the bias is
  added, and the row `r` of the features multiplied with the transpose of `Wr` is added:

    layer r j = (∑ k, (agg r k / d r) · Wl j k) + b j + ∑ k, feat r k · Wr j k.

  The same layer can be computed with the reciprocal `inv r = 1 / d r` taken first and the row scaled by it,
  `agg r k · inv r`. On the extended reals `x / y` is `x · y⁻¹` whenever `y ≠ 0`, and `1 / y` is then `1 · y⁻¹ = y⁻¹`,
  so the two agree for every `x`, finite or not, as soon as the divisor is not zero; a divisor of the form
  `max c 1` is at least one, hence not zero.
-/
import Idealize.ShloMosaic.PureOps.Ideal
import Idealize.ShloMosaic.Lib.ValueIdx

noncomputable section

open scoped BigOperators

namespace Cert.MeanLayer

open Idealize.ShloMosaic Idealize.ShloMosaic.ValueIdx

/-- Rank-2 and rank-1 arrays of extended reals over literal extents. -/
abbrev Mat (n m : Nat) := (⟨2, ![n, m]⟩ : Shape).Idx → EReal
abbrev Col (n : Nat) := (⟨1, ![n]⟩ : Shape).Idx → EReal

/-- The layer at row `r`, column `j`, the aggregate DIVIDED by the row's divisor. -/
def layerAt (agg feat : Mat 100000 128) (d : Col 100000) (Wl : Mat 128 128) (b : Col 128) (Wr : Mat 128 128)
    (r : Fin 100000) (j : Fin 128) : EReal :=
  (∑ k : Fin 128, Ideal.div (agg (ix2 r k)) (d (ix1 r)) * Wl (ix2 j k)) + b (ix1 j) + ∑ k : Fin 128, feat (ix2 r k) * Wr (ix2 j k)

/-- One row of the layer in its SCALED form: from the aggregate's row `a`, the features' row `f` and the row's scale `s`,
    column `j` is `(∑ k, (a k · s) · Wl j k) + b j + ∑ k, f k · Wr j k`. The layer at `(r, j)` reads nothing but row `r`. -/
def rowScaled (a f : Fin 128 → EReal) (s : EReal) (Wl : Mat 128 128) (b : Col 128) (Wr : Mat 128 128) (j : Fin 128) : EReal :=
  (∑ k : Fin 128, (a k * s) * Wl (ix2 j k)) + b (ix1 j) + ∑ k : Fin 128, f k * Wr (ix2 j k)

/-- The layer at row `r`, column `j`, the aggregate MULTIPLIED by the row's entry of a column `inv` (shape [n, 1]). -/
def scaledAt (agg feat : Mat 100000 128) (inv : Mat 100000 1) (Wl : Mat 128 128) (b : Col 128) (Wr : Mat 128 128)
    (r : Fin 100000) (j : Fin 128) : EReal :=
  rowScaled (fun k => agg (ix2 r k)) (fun k => feat (ix2 r k)) (inv (ix2 r 0)) Wl b Wr j

/-- The layer as an array. -/
def layer (agg feat : Mat 100000 128) (d : Col 100000) (Wl : Mat 128 128) (b : Col 128) (Wr : Mat 128 128) : Mat 100000 128 :=
  fun i => layerAt agg feat d Wl b Wr (i 0) (i 1)

/-- The layer followed by the rectifier `max · z` against a fixed value `z` (the programs' zero word). -/
def layerMax (z : EReal) (agg feat : Mat 100000 128) (d : Col 100000) (Wl : Mat 128 128) (b : Col 128) (Wr : Mat 128 128) :
    Mat 100000 128 :=
  fun i => max (layerAt agg feat d Wl b Wr (i 0) (i 1)) z

/-- Multiplying by the reciprocal is dividing, for a divisor that is not zero — at the infinities too. -/
theorem mul_div_one (x y : EReal) (hy : y ≠ 0) : x * Ideal.div 1 y = Ideal.div x y := by
  rw [Ideal.div, if_neg hy, Ideal.div, if_neg hy, one_mul]

/-- A maximum against one is not zero. -/
theorem max_one_ne_zero (c : EReal) : max c 1 ≠ 0 :=
  ne_of_gt (lt_of_lt_of_le zero_lt_one (le_max_right c 1))

/-- The scaled form is the divided form when the scaling column is the reciprocal of a divisor that is nowhere zero. -/
theorem scaledAt_eq_layerAt (agg feat : Mat 100000 128) (inv : Mat 100000 1) (d : Col 100000) (Wl : Mat 128 128) (b : Col 128)
    (Wr : Mat 128 128) (hinv : ∀ r : Fin 100000, inv (ix2 r 0) = Ideal.div 1 (d (ix1 r))) (hd : ∀ r : Fin 100000, d (ix1 r) ≠ 0)
    (r : Fin 100000) (j : Fin 128) :
    scaledAt agg feat inv Wl b Wr r j = layerAt agg feat d Wl b Wr r j := by
  unfold scaledAt rowScaled layerAt
  rw [hinv r]
  simp only [mul_div_one _ _ (hd r)]

end Cert.MeanLayer

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.Body.lean ====
/-
  The dense layer's body, read at one entry of its output block.

  One grid point sees a 5000-row block of the aggregate, of the features and of the scaling column, and the whole of
  the two weight matrices and of the bias. Its stored value at block entry (p, q) is one row of the scaled layer:
  the aggregate's row p times the row's scale, contracted with row q of `Wl`; plus the bias at q; plus the features'
  row p contracted with row q of `Wr`. Both contractions run over the SECOND axis of both operands (the weights are used
  transposed), the accumulator is the zero splat, and the narrowing of the operands to a shorter float format is the
  identity on the extended reals. The first launch then takes the maximum with the zero word; the second does not.
-/
import proofs.«130161_j21337397527225_2_alg».proof.Proof.Gen.KernelIdeal.Skeleton
import proofs.«130161_j21337397527225_2_alg».proof.Proof.Layer
import proofs.«130161_j21337397527225_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.MeanLayer

/-- The body's matrix product: both operands contracted along their second axis. -/
abbrev D := dot_S5000x128_S128x128_S5000x128_1_1_0_0_n_n

/-- The left operand's row coordinate is the output's. -/
theorem lhs_row (i : S5000x128.Idx) (k : D.contr.Idx) : (D.lhsIdx i k 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- The right operand's row coordinate is the output's column. -/
theorem rhs_row (i : S5000x128.Idx) (k : D.contr.Idx) : (D.rhsIdx i k 0).val = (i 1).val := by
  unfold DotDims.rhsIdx
  rw [dif_neg (show ¬(0 : Fin S128x128.rank) ∈ D.rhsBatch by decide), dif_pos (show (0 : Fin S128x128.rank) ∈ D.rhsNonContracting by decide)]
  rfl

/-- The product into a zero accumulator, at (p, q): the sum over k of the left operand at (p, k) times the right at (q, k). -/
theorem matmul_at {φ₁ φ₂ : FTy} (l : FVec Ideal S5000x128 φ₁) (r : FVec Ideal S128x128 φ₂) (p : Fin 5000) (q : Fin 128) :
    matmul D none l r (constant S5000x128 .f32 0x00000000#32) (ix2 p q) = ∑ k : Fin 128, l (ix2 p k) * r (ix2 q k) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (D.rhsIdx_val_of_single rfl _ _).trans hk)
  rw [el, er]

/-- The second launch's stored value at block entry (p, q): the scaled row. -/
theorem pay1_apply (x0 x1 : Vec Ideal S5000x128 .f32) (x2 : Vec Ideal S5000x1 .f32) (x3 : Vec Ideal S128x128 .f32)
    (x4 : Vec Ideal S128 .f32) (x5 : Vec Ideal S128x128 .f32) (p : Fin 5000) (q : Fin 128) :
    k1_pay1 x0 x2 x1 x3 x5 x4 (ix2 p q)
      = rowScaled (fun k => x0 (ix2 p k)) (fun k => x1 (ix2 p k)) (x2 (ix2 p 0)) x3 x4 x5 q := by
  unfold k1_pay1 rowScaled
  simp only [shapeCast_self]
  rw [addf_apply, addf_apply, matmul_at, matmul_at]
  simp only [truncf_apply, mulf_apply, Cert.Columns.broadcastTo_a1_ab_apply, broadcastTo_1b_ab_apply, shapeCast_a_1a_apply]

/-- The first launch's stored value at block entry (p, q): the scaled row, then the maximum with the zero word. -/
theorem pay0_apply (x0 x1 : Vec Ideal S5000x128 .f32) (x2 : Vec Ideal S5000x1 .f32) (x3 : Vec Ideal S128x128 .f32)
    (x4 : Vec Ideal S128 .f32) (x5 : Vec Ideal S128x128 .f32) (p : Fin 5000) (q : Fin 128) :
    k0_pay1 x0 x2 x1 x3 x5 x4 (ix2 p q)
      = max (rowScaled (fun k => x0 (ix2 p k)) (fun k => x1 (ix2 p k)) (x2 (ix2 p 0)) x3 x4 x5 q) (Ideal.ofBits .f32 0x00000000#32) := by
  unfold k0_pay1 rowScaled
  simp only [shapeCast_self]
  rw [maximumf_apply, addf_apply, addf_apply, matmul_at, matmul_at]
  simp only [truncf_apply, mulf_apply, Cert.Columns.broadcastTo_a1_ab_apply, broadcastTo_1b_ab_apply, shapeCast_a_1a_apply,
    broadcast_apply]
  rfl

end Cert.KernelIdeal.Body

end
-- ==== Proof.Blocks.lean ====
/-
  From blocks to arrays: what each launch of the dense layer leaves in its output array.

  A launch runs over 20 grid points; point `t` reads rows 5000·t … 5000·t + 4999 of the aggregate, of the features and
  of the scaling column, reads the weights and the bias whole, and writes rows 5000·t … 5000·t + 4999 of the output.
  Entry (p, q) of the block written at point `t` is the scaled layer at row 5000·t + p, column q, a function of row
  5000·t + p of the arrays alone; so every point writes its block of ONE whole-array function, the 20 blocks tile the
  100000 rows, and the output array ends as that function. All of this is stated for arbitrary contents `V` of the
  buffers at the launch's entry: the two launches differ only in which buffers their windows name and in the final maximum.
-/
import proofs.«130161_j21337397527225_2_alg».proof.Proof.Gen.KernelIdeal.Frame
import proofs.«130161_j21337397527225_2_alg».proof.Proof.Body

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.MeanLayer
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Launch 0 -/

/-- What launch 0's output array holds after the launch, as a function of the arrays the launch finds: the scaled layer, then the maximum with the zero word. -/
def G0 (c : Dev nD) : S100000x128.Idx → EReal := fun i =>
  max (scaledAt (V c main_v22) (V c main_arg0) (V c main_v12) (V c main_arg2) (V c main_arg3) (V c main_arg4) (i 0) (i 1)) (Ideal.ofBits .f32 0x00000000#32)

/-- One entry of the stored block is one entry of the layer: block row `p` of every row-blocked operand is array row
    `r`, and the weights and the bias are seen whole. -/
theorem point0 (x0 x1 : Vec Ideal S5000x128 .f32) (x2 : Vec Ideal S5000x1 .f32) (x3 : Vec Ideal S128x128 .f32)
    (x4 : Vec Ideal S128 .f32) (x5 : Vec Ideal S128x128 .f32) (A Fe : Mat 100000 128) (I : Mat 100000 1) (Wl : Mat 128 128)
    (b : Col 128) (Wr : Mat 128 128) (p : Fin 5000) (q : Fin 128) (r : Fin 100000)
    (h0 : ∀ k : Fin 128, x0 (ix2 p k) = A (ix2 r k)) (h1 : ∀ k : Fin 128, x1 (ix2 p k) = Fe (ix2 r k))
    (h2 : x2 (ix2 p 0) = I (ix2 r 0)) (h3 : x3 = Wl) (h4 : x4 = b) (h5 : x5 = Wr) :
    k0_pay1 x0 x2 x1 x3 x5 x4 (ix2 p q) = max (scaledAt A Fe I Wl b Wr r q) (Ideal.ofBits .f32 0x00000000#32) := by
  rw [Body.pay0_apply]
  unfold scaledAt
  simp only [h0, h1, h2, h3, h4, h5]

/-- The printed index maps over the grid: point `t` takes block `t` of each row-blocked operand and of the output, and
    block 0 (the whole) of the weights and the bias. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨e00, e01, e10, e11, e20, e21, e30, e31, e40, e50, e51, e60, e61⟩ := idx_facts0 t
  have ht : t.val < 20 := lt_of_lt_of_eq t.isLt N_0
  funext j
  have hj0 : (j 0).val < 5000 := (j 0).isLt
  have hj1 : (j 1).val < 128 := (j 1).isLt
  show k0_pay1 (iblk0 V c 0 t) (iblk0 V c 2 t) (iblk0 V c 1 t) (iblk0 V c 3 t) (iblk0 V c 5 t) (iblk0 V c 4 t) j
    = G0 V c (((cfg0.win 6).blk t).view.emb j)
  let p : Fin 5000 := ⟨(j 0).val, hj0⟩
  let q : Fin 128 := ⟨(j 1).val, hj1⟩
  let r : Fin 100000 := ⟨5000 * t.val + (j 0).val, by omega⟩
  have hj : j = ix2 p q := funext fun a => by
    match a with
    | ⟨0, _⟩ => rfl
    | ⟨1, _⟩ => rfl
  have hemb : ((cfg0.win 6).blk t).view.emb j = ix2 r q := funext fun a => Fin.ext (by
    match a with
    | ⟨0, _⟩ => show win0_6.index t (0 : Fin 2) * 5000 + 1 * (j 0).val = 5000 * t.val + (j 0).val; omega
    | ⟨1, _⟩ => show win0_6.index t (1 : Fin 2) * 128 + 1 * (j 1).val = (j 1).val; omega)
  have h0 : ∀ k : Fin 128, iblk0 V c 0 t (ix2 p k) = V c main_v22 (ix2 r k) := fun k => by
    show V c main_v22 (((cfg0.win 0).blk t).view.emb (ix2 p k)) = V c main_v22 (ix2 r k)
    exact congrArg (V c main_v22) (funext fun a => Fin.ext (by
      match a with
      | ⟨0, _⟩ => show win0_0.index t (0 : Fin 2) * 5000 + 1 * (j 0).val = 5000 * t.val + (j 0).val; omega
      | ⟨1, _⟩ => show win0_0.index t (1 : Fin 2) * 128 + 1 * k.val = k.val; omega))
  have h1 : ∀ k : Fin 128, iblk0 V c 1 t (ix2 p k) = V c main_arg0 (ix2 r k) := fun k => by
    show V c main_arg0 (((cfg0.win 1).blk t).view.emb (ix2 p k)) = V c main_arg0 (ix2 r k)
    exact congrArg (V c main_arg0) (funext fun a => Fin.ext (by
      match a with
      | ⟨0, _⟩ => show win0_1.index t (0 : Fin 2) * 5000 + 1 * (j 0).val = 5000 * t.val + (j 0).val; omega
      | ⟨1, _⟩ => show win0_1.index t (1 : Fin 2) * 128 + 1 * k.val = k.val; omega))
  have h2 : iblk0 V c 2 t (ix2 p 0) = V c main_v12 (ix2 r 0) := by
    show V c main_v12 (((cfg0.win 2).blk t).view.emb (ix2 p 0)) = V c main_v12 (ix2 r 0)
    exact congrArg (V c main_v12) (funext fun a => Fin.ext (by
      match a with
      | ⟨0, _⟩ => show win0_2.index t (0 : Fin 2) * 5000 + 1 * (j 0).val = 5000 * t.val + (j 0).val; omega
      | ⟨1, _⟩ => show win0_2.index t (1 : Fin 2) * 1 + 1 * 0 = 0; omega))
  have h3 : iblk0 V c 3 t = V c main_arg2 := funext fun y => by
    show V c main_arg2 (((cfg0.win 3).blk t).view.emb y) = V c main_arg2 y
    exact congrArg (V c main_arg2) (funext fun a => Fin.ext (by
      match a with
      | ⟨0, _⟩ => show win0_3.index t (0 : Fin 2) * 128 + 1 * (y 0).val = (y 0).val; omega
      | ⟨1, _⟩ => show win0_3.index t (1 : Fin 2) * 128 + 1 * (y 1).val = (y 1).val; omega))
  have h4 : iblk0 V c 4 t = V c main_arg3 := funext fun y => by
    show V c main_arg3 (((cfg0.win 4).blk t).view.emb y) = V c main_arg3 y
    exact congrArg (V c main_arg3) (funext fun a => Fin.ext (by
      match a with
      | ⟨0, _⟩ => show win0_4.index t (0 : Fin 1) * 128 + 1 * (y 0).val = (y 0).val; omega))
  have h5 : iblk0 V c 5 t = V c main_arg4 := funext fun y => by
    show V c main_arg4 (((cfg0.win 5).blk t).view.emb y) = V c main_arg4 y
    exact congrArg (V c main_arg4) (funext fun a => Fin.ext (by
      match a with
      | ⟨0, _⟩ => show win0_5.index t (0 : Fin 2) * 128 + 1 * (y 0).val = (y 0).val; omega
      | ⟨1, _⟩ => show win0_5.index t (1 : Fin 2) * 128 + 1 * (y 1).val = (y 1).val; omega))
  rw [hemb]
  refine (congrArg (k0_pay1 (iblk0 V c 0 t) (iblk0 V c 2 t) (iblk0 V c 1 t) (iblk0 V c 3 t) (iblk0 V c 5 t) (iblk0 V c 4 t)) hj).trans ?_
  exact point0 (iblk0 V c 0 t) (iblk0 V c 1 t) (iblk0 V c 2 t) (iblk0 V c 3 t) (iblk0 V c 4 t) (iblk0 V c 5 t)
    (V c main_v22) (V c main_arg0) (V c main_v12) (V c main_arg2) (V c main_arg3) (V c main_arg4) p q r h0 h1 h2 h3 h4 h5

/-- An index of the array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

/-- Row `r` lies in the block of point `r / 5000`: the 20 blocks of 5000 rows tile the 100000 rows. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := by
    show (i 0).val / 5000 < grid0.N
    rw [N_0]; omega
  obtain ⟨e00, e01, e10, e11, e20, e21, e30, e31, e40, e50, e51, e60, e61⟩ := idx_facts0 ⟨(i 0).val / 5000, hN⟩
  have e60' : win0_6.index ⟨(i 0).val / 5000, hN⟩ (0 : Fin 2) = (i 0).val / 5000 := e60
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    omega

/-- THE ARRAY after launch 0: `G0` of the arrays the launch found. -/
theorem final0 (c : Dev nD) : (dat0 V c).arrAt 6 cfg0.N = G0 V c :=
  (dat0 V c).arrAt_eq_of_cover 6 (G0 V c) (fun t _ => flushed0_eq V c t) (cover0)

/-- `G0` with the launch's six operand arrays named. -/
theorem G0_of (c : Dev nD) (A Fe : Mat 100000 128) (I : Mat 100000 1) (Wl : Mat 128 128) (b : Col 128) (Wr : Mat 128 128)
    (h0 : V c main_v22 = A) (h1 : V c main_arg0 = Fe) (h2 : V c main_v12 = I) (h3 : V c main_arg2 = Wl) (h4 : V c main_arg3 = b)
    (h5 : V c main_arg4 = Wr) :
    G0 V c = fun i => max (scaledAt A Fe I Wl b Wr (i 0) (i 1)) (Ideal.ofBits .f32 0x00000000#32) := by
  unfold G0
  rw [h0, h1, h2, h3, h4, h5]

/-! ## Launch 1 -/

/-- What launch 1's output array holds after the launch, as a function of the arrays the launch finds: the scaled layer. -/
def G1 (c : Dev nD) : S100000x128.Idx → EReal := fun i =>
  scaledAt (V c main_v33) (V c main_v23) (V c main_v12) (V c main_arg5) (V c main_arg6) (V c main_arg7) (i 0) (i 1)

/-- One entry of the stored block is one entry of the layer: block row `p` of every row-blocked operand is array row
    `r`, and the weights and the bias are seen whole. -/
theorem point1 (x0 x1 : Vec Ideal S5000x128 .f32) (x2 : Vec Ideal S5000x1 .f32) (x3 : Vec Ideal S128x128 .f32)
    (x4 : Vec Ideal S128 .f32) (x5 : Vec Ideal S128x128 .f32) (A Fe : Mat 100000 128) (I : Mat 100000 1) (Wl : Mat 128 128)
    (b : Col 128) (Wr : Mat 128 128) (p : Fin 5000) (q : Fin 128) (r : Fin 100000)
    (h0 : ∀ k : Fin 128, x0 (ix2 p k) = A (ix2 r k)) (h1 : ∀ k : Fin 128, x1 (ix2 p k) = Fe (ix2 r k))
    (h2 : x2 (ix2 p 0) = I (ix2 r 0)) (h3 : x3 = Wl) (h4 : x4 = b) (h5 : x5 = Wr) :
    k1_pay1 x0 x2 x1 x3 x5 x4 (ix2 p q) = scaledAt A Fe I Wl b Wr r q := by
  rw [Body.pay1_apply]
  unfold scaledAt
  simp only [h0, h1, h2, h3, h4, h5]

/-- The printed index maps over the grid: point `t` takes block `t` of each row-blocked operand and of the output, and
    block 0 (the whole) of the weights and the bias. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨e00, e01, e10, e11, e20, e21, e30, e31, e40, e50, e51, e60, e61⟩ := idx_facts1 t
  have ht : t.val < 20 := lt_of_lt_of_eq t.isLt N_1
  funext j
  have hj0 : (j 0).val < 5000 := (j 0).isLt
  have hj1 : (j 1).val < 128 := (j 1).isLt
  show k1_pay1 (iblk1 V c 0 t) (iblk1 V c 2 t) (iblk1 V c 1 t) (iblk1 V c 3 t) (iblk1 V c 5 t) (iblk1 V c 4 t) j
    = G1 V c (((cfg1.win 6).blk t).view.emb j)
  let p : Fin 5000 := ⟨(j 0).val, hj0⟩
  let q : Fin 128 := ⟨(j 1).val, hj1⟩
  let r : Fin 100000 := ⟨5000 * t.val + (j 0).val, by omega⟩
  have hj : j = ix2 p q := funext fun a => by
    match a with
    | ⟨0, _⟩ => rfl
    | ⟨1, _⟩ => rfl
  have hemb : ((cfg1.win 6).blk t).view.emb j = ix2 r q := funext fun a => Fin.ext (by
    match a with
    | ⟨0, _⟩ => show win1_6.index t (0 : Fin 2) * 5000 + 1 * (j 0).val = 5000 * t.val + (j 0).val; omega
    | ⟨1, _⟩ => show win1_6.index t (1 : Fin 2) * 128 + 1 * (j 1).val = (j 1).val; omega)
  have h0 : ∀ k : Fin 128, iblk1 V c 0 t (ix2 p k) = V c main_v33 (ix2 r k) := fun k => by
    show V c main_v33 (((cfg1.win 0).blk t).view.emb (ix2 p k)) = V c main_v33 (ix2 r k)
    exact congrArg (V c main_v33) (funext fun a => Fin.ext (by
      match a with
      | ⟨0, _⟩ => show win1_0.index t (0 : Fin 2) * 5000 + 1 * (j 0).val = 5000 * t.val + (j 0).val; omega
      | ⟨1, _⟩ => show win1_0.index t (1 : Fin 2) * 128 + 1 * k.val = k.val; omega))
  have h1 : ∀ k : Fin 128, iblk1 V c 1 t (ix2 p k) = V c main_v23 (ix2 r k) := fun k => by
    show V c main_v23 (((cfg1.win 1).blk t).view.emb (ix2 p k)) = V c main_v23 (ix2 r k)
    exact congrArg (V c main_v23) (funext fun a => Fin.ext (by
      match a with
      | ⟨0, _⟩ => show win1_1.index t (0 : Fin 2) * 5000 + 1 * (j 0).val = 5000 * t.val + (j 0).val; omega
      | ⟨1, _⟩ => show win1_1.index t (1 : Fin 2) * 128 + 1 * k.val = k.val; omega))
  have h2 : iblk1 V c 2 t (ix2 p 0) = V c main_v12 (ix2 r 0) := by
    show V c main_v12 (((cfg1.win 2).blk t).view.emb (ix2 p 0)) = V c main_v12 (ix2 r 0)
    exact congrArg (V c main_v12) (funext fun a => Fin.ext (by
      match a with
      | ⟨0, _⟩ => show win1_2.index t (0 : Fin 2) * 5000 + 1 * (j 0).val = 5000 * t.val + (j 0).val; omega
      | ⟨1, _⟩ => show win1_2.index t (1 : Fin 2) * 1 + 1 * 0 = 0; omega))
  have h3 : iblk1 V c 3 t = V c main_arg5 := funext fun y => by
    show V c main_arg5 (((cfg1.win 3).blk t).view.emb y) = V c main_arg5 y
    exact congrArg (V c main_arg5) (funext fun a => Fin.ext (by
      match a with
      | ⟨0, _⟩ => show win1_3.index t (0 : Fin 2) * 128 + 1 * (y 0).val = (y 0).val; omega
      | ⟨1, _⟩ => show win1_3.index t (1 : Fin 2) * 128 + 1 * (y 1).val = (y 1).val; omega))
  have h4 : iblk1 V c 4 t = V c main_arg6 := funext fun y => by
    show V c main_arg6 (((cfg1.win 4).blk t).view.emb y) = V c main_arg6 y
    exact congrArg (V c main_arg6) (funext fun a => Fin.ext (by
      match a with
      | ⟨0, _⟩ => show win1_4.index t (0 : Fin 1) * 128 + 1 * (y 0).val = (y 0).val; omega))
  have h5 : iblk1 V c 5 t = V c main_arg7 := funext fun y => by
    show V c main_arg7 (((cfg1.win 5).blk t).view.emb y) = V c main_arg7 y
    exact congrArg (V c main_arg7) (funext fun a => Fin.ext (by
      match a with
      | ⟨0, _⟩ => show win1_5.index t (0 : Fin 2) * 128 + 1 * (y 0).val = (y 0).val; omega
      | ⟨1, _⟩ => show win1_5.index t (1 : Fin 2) * 128 + 1 * (y 1).val = (y 1).val; omega))
  rw [hemb]
  refine (congrArg (k1_pay1 (iblk1 V c 0 t) (iblk1 V c 2 t) (iblk1 V c 1 t) (iblk1 V c 3 t) (iblk1 V c 5 t) (iblk1 V c 4 t)) hj).trans ?_
  exact point1 (iblk1 V c 0 t) (iblk1 V c 1 t) (iblk1 V c 2 t) (iblk1 V c 3 t) (iblk1 V c 4 t) (iblk1 V c 5 t)
    (V c main_v33) (V c main_v23) (V c main_v12) (V c main_arg5) (V c main_arg6) (V c main_arg7) p q r h0 h1 h2 h3 h4 h5

/-- An index of the array is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v34).slice (win1_6.rect t)).set ↔ _
  rw [View.set_slice_whole, Rect.mem_set_unit]
  exact Iff.rfl

/-- Row `r` lies in the block of point `r / 5000`: the 20 blocks of 5000 rows tile the 100000 rows. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := by
    show (i 0).val / 5000 < grid1.N
    rw [N_1]; omega
  obtain ⟨e00, e01, e10, e11, e20, e21, e30, e31, e40, e50, e51, e60, e61⟩ := idx_facts1 ⟨(i 0).val / 5000, hN⟩
  have e60' : win1_6.index ⟨(i 0).val / 5000, hN⟩ (0 : Fin 2) = (i 0).val / 5000 := e60
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    omega
  | ⟨1, _⟩ =>
    show win1_6.index ⟨(i 0).val / 5000, hN⟩ (1 : Fin 2) * 128 ≤ (i 1).val ∧ (i 1).val < win1_6.index ⟨(i 0).val / 5000, hN⟩ (1 : Fin 2) * 128 + 128
    omega

/-- THE ARRAY after launch 1: `G1` of the arrays the launch found. -/
theorem final1 (c : Dev nD) : (dat1 V c).arrAt 6 cfg1.N = G1 V c :=
  (dat1 V c).arrAt_eq_of_cover 6 (G1 V c) (fun t _ => flushed1_eq V c t) (cover1)

/-- `G1` with the launch's six operand arrays named. -/
theorem G1_of (c : Dev nD) (A Fe : Mat 100000 128) (I : Mat 100000 1) (Wl : Mat 128 128) (b : Col 128) (Wr : Mat 128 128)
    (h0 : V c main_v33 = A) (h1 : V c main_v23 = Fe) (h2 : V c main_v12 = I) (h3 : V c main_arg5 = Wl) (h4 : V c main_arg6 = b)
    (h5 : V c main_arg7 = Wr) :
    G1 V c = fun i => scaledAt A Fe I Wl b Wr (i 0) (i 1) := by
  unfold G1
  rw [h0, h1, h2, h3, h4, h5]

end Cert.KernelIdeal.Blocks

end
-- ==== Proof.Boundary.lean ====
/-
  What the dense layer's launches find in their operands' buffers, read through the host operations.

  Before the first launch the host computes, from the edge list, the in-degree of every node as a scatter-sum of ones,
  its maximum with one, the reciprocal of that as a column, and the aggregate of the node features over the edges (a
  gather along the sources scattered-summed along the destinations). Between the two launches it aggregates the first
  launch's output in the same way. These are the very operations the reference program applies, so each operand is
  named here by the reference's own stage of the same arguments: the aggregate `val_main_v13`, the divisor
  `val_main_v19` (whose reciprocal the kernel's column holds), and the second aggregate `val_main_v41` of whatever the
  first launch left. Buffers that no operation in between writes hold what they held before.
-/
import proofs.«130161_j21337397527225_2_alg».proof.Proof.Gen.KernelIdeal.Frame
import proofs.«130161_j21337397527225_2_alg».proof.Proof.Gen.ReferenceIdeal.Read
import proofs.«130161_j21337397527225_2_alg».proof.Proof.LibColumns
import Idealize.ShloMosaic.Lib.IdealHost

set_option maxRecDepth 16384

noncomputable section

namespace Cert.KernelIdeal.Boundary

open Cert.KernelIdeal Cert.KernelIdeal.Gen Idealize.ShloMosaic Idealize.ShloMosaic.TcCoe Idealize.ShloMosaic.ValueIdx
open Idealize.SL.Sem Idealize.ShloMosaic.StableHlo Cert.ReferenceIdeal.Read
open Idealize.ShloMosaic.Pipeline (Dat Cfg Window)

variable (m : (ℓ : Loc nD τ sig) → Buf (Elt Ideal) ℓ) (ρ : Dev nD → PrngReg)

/-- The eight arguments as launched, as plain arrays. -/
abbrev a0 (c : Dev nD) : S100000x128.Idx → EReal := m ((c : Thread nD τ).loc main_arg0)
abbrev a1 (c : Dev nD) : S2x1600000.Idx → BitVec 32 := m ((c : Thread nD τ).loc main_arg1)
abbrev a2 (c : Dev nD) : S128x128.Idx → EReal := m ((c : Thread nD τ).loc main_arg2)
abbrev a3 (c : Dev nD) : S128.Idx → EReal := m ((c : Thread nD τ).loc main_arg3)
abbrev a4 (c : Dev nD) : S128x128.Idx → EReal := m ((c : Thread nD τ).loc main_arg4)
abbrev a5 (c : Dev nD) : S128x128.Idx → EReal := m ((c : Thread nD τ).loc main_arg5)
abbrev a6 (c : Dev nD) : S128.Idx → EReal := m ((c : Thread nD τ).loc main_arg6)
abbrev a7 (c : Dev nD) : S128x128.Idx → EReal := m ((c : Thread nD τ).loc main_arg7)

/-! ## At the first launch -/

theorem V1_arg0 (c : Dev nD) : V1 m ρ c main_arg0 = a0 m c := by
  show StableHlo.after hostOps0 (W0 m ρ c) (Proc.devRef .tc main_arg0) = _
  after_results
theorem V1_arg2 (c : Dev nD) : V1 m ρ c main_arg2 = a2 m c := by
  show StableHlo.after hostOps0 (W0 m ρ c) (Proc.devRef .tc main_arg2) = _
  after_results
theorem V1_arg3 (c : Dev nD) : V1 m ρ c main_arg3 = a3 m c := by
  show StableHlo.after hostOps0 (W0 m ρ c) (Proc.devRef .tc main_arg3) = _
  after_results
theorem V1_arg4 (c : Dev nD) : V1 m ρ c main_arg4 = a4 m c := by
  show StableHlo.after hostOps0 (W0 m ρ c) (Proc.devRef .tc main_arg4) = _
  after_results

/-- The sources and the destinations of the edges, as the host's first lines leave them. -/
theorem W1_src (c : Dev nD) : W1 m ρ c (Proc.devRef .tc main_v1) = val_main_v1 (F := Ideal) (a1 m c) := by
  show StableHlo.after hostOps0 (W0 m ρ c) (Proc.devRef .tc main_v1) = _
  after_results
  rfl
theorem W1_dst (c : Dev nD) : W1 m ρ c (Proc.devRef .tc main_v3) = val_main_v3 (F := Ideal) (a1 m c) := by
  show StableHlo.after hostOps0 (W0 m ρ c) (Proc.devRef .tc main_v3) = _
  after_results
  rfl

set_option maxHeartbeats 4000000 in
/-- The first launch's aggregate is the reference's. -/
theorem V1_agg (c : Dev nD) : V1 m ρ c main_v22 = val_main_v13 (F := Ideal) (a0 m c) (a1 m c) := by
  show StableHlo.after hostOps0 (W0 m ρ c) (Proc.devRef .tc main_v22) = _
  after_results_simp
  rfl

/-- The scaling column is the reciprocal of the reference's divisor, cast to a column. -/
theorem V1_inv (c : Dev nD) : V1 m ρ c main_v12
    = shapeCast S100000x1 (Host.divf (F := Ideal) (broadcastInDim S100000 ![] bcast_S_S100000 (constant (F := Ideal) S_ .f32 0x3F800000#32))
        (val_main_v19 (F := Ideal) (a1 m c))) shapeCasts_S100000_S100000x1 := by
  show StableHlo.after hostOps0 (W0 m ρ c) (Proc.devRef .tc main_v12) = _
  after_results
  rfl

/-- The splat of the one word divided by an array `D` is, entry by entry, one over `D`. -/
theorem recip_entry (D : S100000.Idx → EReal) (i : S100000.Idx) :
    Host.divf (F := Ideal) (broadcastInDim S100000 ![] bcast_S_S100000 (constant (F := Ideal) S_ .f32 0x3F800000#32)) D i
      = Ideal.div 1 (D i) := by
  show Ideal.div (constant (F := Ideal) S_ .f32 0x3F800000#32 _) (D i) = _
  rw [constant_apply, Ideal.ofBits_one_f32]

/-- Entry `r` of the column is one over the divisor of row `r`. -/
theorem inv_entry (c : Dev nD) (r : Fin 100000) :
    V1 m ρ c main_v12 (ix2 r 0) = Ideal.div 1 (val_main_v19 (F := Ideal) (a1 m c) (ix1 r)) := by
  rw [V1_inv]
  exact (Cert.Columns.shapeCast_a_a1_apply _ shapeCasts_S100000_S100000x1 r 0).trans
    (recip_entry (val_main_v19 (F := Ideal) (a1 m c)) (ix1 r))

/-- The divisor is a maximum with one, so it is nowhere zero. -/
theorem divisor_ne_zero (x1 : S2x1600000.Idx → BitVec 32) (r : Fin 100000) : val_main_v19 (F := Ideal) x1 (ix1 r) ≠ 0 := by
  rw [val_main_v19_apply]
  show max _ (Ideal.ofBits .f32 0x3F800000#32) ≠ 0
  rw [Ideal.ofBits_one_f32]
  exact ne_of_gt (lt_of_lt_of_le zero_lt_one (le_max_right _ 1))

/-- The reference recomputes the divisor for its second layer: the same stage. -/
theorem divisor_again (x1 : S2x1600000.Idx → BitVec 32) : val_main_v47 (F := Ideal) x1 = val_main_v19 (F := Ideal) x1 := rfl

/-! ## At the second launch -/

/-- No operation between the launches writes the first launch's output. -/
theorem V3_feat (c : Dev nD) : V3 m ρ c main_v23 = W2 m ρ c (Proc.devRef .tc main_v23) := by
  show StableHlo.after hostOps1 (W2 m ρ c) (Proc.devRef .tc main_v23) = _
  after_results
/-- The scaling column is still the one the first launch read. -/
theorem V3_inv (c : Dev nD) : V3 m ρ c main_v12 = V1 m ρ c main_v12 := by
  have h : V3 m ρ c main_v12 = W2 m ρ c (Proc.devRef .tc main_v12) := by
    show StableHlo.after hostOps1 (W2 m ρ c) (Proc.devRef .tc main_v12) = _
    after_results
  exact h.trans ((W2_arr m ρ c 2).trans (((dat0 (V1 m ρ) c).arrAt_in 2 rfl _).trans (A_eq0 (V1 m ρ) c 2)))
/-- The second launch reads its weights and bias whole and writes none of them: they are as launched. -/
theorem V3_arg5 (c : Dev nD) : V3 m ρ c main_arg5 = a5 m c :=
  ((W4_arr m ρ c 3).trans (((dat1 (V3 m ρ) c).arrAt_in 3 rfl _).trans (A_eq1 (V3 m ρ) c 3))).symm.trans
    (W4_main_arg5 m ρ c)
theorem V3_arg6 (c : Dev nD) : V3 m ρ c main_arg6 = a6 m c :=
  ((W4_arr m ρ c 4).trans (((dat1 (V3 m ρ) c).arrAt_in 4 rfl _).trans (A_eq1 (V3 m ρ) c 4))).symm.trans
    (W4_main_arg6 m ρ c)
theorem V3_arg7 (c : Dev nD) : V3 m ρ c main_arg7 = a7 m c :=
  ((W4_arr m ρ c 5).trans (((dat1 (V3 m ρ) c).arrAt_in 5 rfl _).trans (A_eq1 (V3 m ρ) c 5))).symm.trans
    (W4_main_arg7 m ρ c)

/-- The second launch's aggregate is the reference's second aggregate, once the first launch's output is the
    reference's hidden layer. -/
theorem V3_agg (c : Dev nD)
    (hH : W2 m ρ c (Proc.devRef .tc main_v23) = val_main_v31 (F := Ideal) (a0 m c) (a1 m c) (a2 m c) (a3 m c) (a4 m c)) :
    V3 m ρ c main_v33 = val_main_v41 (F := Ideal) (a0 m c) (a1 m c) (a2 m c) (a3 m c) (a4 m c) := by
  show StableHlo.after hostOps1 (W2 m ρ c) (Proc.devRef .tc main_v33) = _
  after_results
  rw [hH, W2_of_ne m ρ c main_v1 (by decide), W2_of_ne m ρ c main_v3 (by decide), W1_src, W1_dst]
  rfl

end Cert.KernelIdeal.Boundary

end
-- ==== Proof.RefLayers.lean ====
/-
  The reference program's two layers, read as the layer of `Cert.MeanLayer`.

  The reference is a two-layer graph network with mean aggregation. In each layer the aggregate (a scatter-add over the
  edges) and the divisor (the in-degree, clamped below by one) are left as they are: nothing here looks inside them.
  Everything after them is read index by index. At row `r` and column `j` a layer computes

    (∑ k, (agg r k / d r) · Wl j k) + b j + ∑ k, feat r k · Wr j k,

  because
  • the divisor column is broadcast along the row, so the quotient at `(r, k)` divides by the entry `d r`;
  • the weights enter through a transpose, so the entry `(k, j)` of the transposed matrix is the entry `(j, k)` of the
    argument, and the contraction of the product runs over the second axis of both factors;
  • the bias is broadcast along the rows, so the entry added at `(r, j)` is `b j`.
  The first layer is followed by the maximum against a splat of the zero word; the splat at any index is that word itself,
  which is the word `layerMax` is given, so it is never evaluated. The second layer reads the first layer's result as
  its features.
-/
import proofs.«130161_j21337397527225_2_alg».proof.Proof.Gen.ReferenceIdeal.Read
import proofs.«130161_j21337397527225_2_alg».proof.Proof.Layer
noncomputable section
namespace Cert.RefLayers
open Cert.ReferenceIdeal Cert.ReferenceIdeal.Read Idealize.ShloMosaic Idealize.ShloMosaic.ValueIdx Cert.MeanLayer

/-! ## Where each operation reads, at an index given by its coordinates

Each equation below says which entry of its operand an operation reads for the result entry `(r, j)` (or, under a
contraction, for the term `k` of that entry). Both sides are functions of the axis; they agree at axis 0 and at axis 1. -/

/-! ### First layer -/

/-- Term `k` of the product with `Wl` reads the left factor at `(r, k)`. -/
theorem lidx24 (r : Fin 100000) (j k : Fin 128) : lidx_main_v24 (ix2 r j) k = ix2 r k :=
  funext fun a => Fin.ext (by match a with | ⟨0, _⟩ => rfl | ⟨1, _⟩ => rfl)
/-- Term `k` of the product with `Wl` reads the right factor (the transposed weights) at `(k, j)`. -/
theorem ridx24 (r : Fin 100000) (j k : Fin 128) : ridx_main_v24 (ix2 r j) k = ix2 k j :=
  funext fun a => Fin.ext (by match a with | ⟨0, _⟩ => rfl | ⟨1, _⟩ => rfl)
/-- The transpose at `(k, j)` reads its argument at `(j, k)`. -/
theorem idx23 (k j : Fin 128) : idx_main_v23 (ix2 k j) = ix2 j k :=
  funext fun a => Fin.ext (by match a with | ⟨0, _⟩ => rfl | ⟨1, _⟩ => rfl)
/-- The divisor broadcast to the aggregate's shape reads, at `(r, k)`, the divisor of row `r`. -/
theorem idx2021 (r : Fin 100000) (k : Fin 128) : idx_main_v20 (idx_main_v21 (ix2 r k)) = ix1 r :=
  funext fun a => Fin.ext (by match a with | ⟨0, _⟩ => rfl)
/-- The bias broadcast to the result's shape reads, at `(r, j)`, the bias of column `j`. -/
theorem idx2526 (r : Fin 100000) (j : Fin 128) : idx_main_v25 (idx_main_v26 (ix2 r j)) = ix1 j :=
  funext fun a => Fin.ext (by match a with | ⟨0, _⟩ => rfl)
/-- Term `k` of the product with `Wr` reads the features at `(r, k)`. -/
theorem lidx29 (r : Fin 100000) (j k : Fin 128) : lidx_main_v29 (ix2 r j) k = ix2 r k :=
  funext fun a => Fin.ext (by match a with | ⟨0, _⟩ => rfl | ⟨1, _⟩ => rfl)
/-- Term `k` of the product with `Wr` reads the transposed weights at `(k, j)`. -/
theorem ridx29 (r : Fin 100000) (j k : Fin 128) : ridx_main_v29 (ix2 r j) k = ix2 k j :=
  funext fun a => Fin.ext (by match a with | ⟨0, _⟩ => rfl | ⟨1, _⟩ => rfl)
/-- The transpose at `(k, j)` reads its argument at `(j, k)`. -/
theorem idx28 (k j : Fin 128) : idx_main_v28 (ix2 k j) = ix2 j k :=
  funext fun a => Fin.ext (by match a with | ⟨0, _⟩ => rfl | ⟨1, _⟩ => rfl)

/-! ### Second layer: the same reads -/

/-- Term `k` of the product with `Wl` reads the left factor at `(r, k)`. -/
theorem lidx52 (r : Fin 100000) (j k : Fin 128) : lidx_main_v52 (ix2 r j) k = ix2 r k :=
  funext fun a => Fin.ext (by match a with | ⟨0, _⟩ => rfl | ⟨1, _⟩ => rfl)
/-- Term `k` of the product with `Wl` reads the transposed weights at `(k, j)`. -/
theorem ridx52 (r : Fin 100000) (j k : Fin 128) : ridx_main_v52 (ix2 r j) k = ix2 k j :=
  funext fun a => Fin.ext (by match a with | ⟨0, _⟩ => rfl | ⟨1, _⟩ => rfl)
/-- The transpose at `(k, j)` reads its argument at `(j, k)`. -/
theorem idx51 (k j : Fin 128) : idx_main_v51 (ix2 k j) = ix2 j k :=
  funext fun a => Fin.ext (by match a with | ⟨0, _⟩ => rfl | ⟨1, _⟩ => rfl)
/-- The divisor broadcast to the aggregate's shape reads, at `(r, k)`, the divisor of row `r`. -/
theorem idx4849 (r : Fin 100000) (k : Fin 128) : idx_main_v48 (idx_main_v49 (ix2 r k)) = ix1 r :=
  funext fun a => Fin.ext (by match a with | ⟨0, _⟩ => rfl)
/-- The bias broadcast to the result's shape reads, at `(r, j)`, the bias of column `j`. -/
theorem idx5354 (r : Fin 100000) (j : Fin 128) : idx_main_v53 (idx_main_v54 (ix2 r j)) = ix1 j :=
  funext fun a => Fin.ext (by match a with | ⟨0, _⟩ => rfl)
/-- Term `k` of the product with `Wr` reads the features (the first layer's result) at `(r, k)`. -/
theorem lidx57 (r : Fin 100000) (j k : Fin 128) : lidx_main_v57 (ix2 r j) k = ix2 r k :=
  funext fun a => Fin.ext (by match a with | ⟨0, _⟩ => rfl | ⟨1, _⟩ => rfl)
/-- Term `k` of the product with `Wr` reads the transposed weights at `(k, j)`. -/
theorem ridx57 (r : Fin 100000) (j k : Fin 128) : ridx_main_v57 (ix2 r j) k = ix2 k j :=
  funext fun a => Fin.ext (by match a with | ⟨0, _⟩ => rfl | ⟨1, _⟩ => rfl)
/-- The transpose at `(k, j)` reads its argument at `(j, k)`. -/
theorem idx56 (k j : Fin 128) : idx_main_v56 (ix2 k j) = ix2 j k :=
  funext fun a => Fin.ext (by match a with | ⟨0, _⟩ => rfl | ⟨1, _⟩ => rfl)

/-! ## The two layers -/

/-- The hidden features: the first layer of the aggregate and divisor of the first round, on the input features, followed
    by the maximum against the zero word.

    At `(r, j)` the program's value is `max (S₁ + b j + S₂) z`, where `S₁` is the contraction of the divided aggregate
    with the transposed `Wl`, `S₂` the contraction of the features with the transposed `Wr`, and `z` the zero word read
    off the splat. The two sums are compared term by term: term `k` of `S₁` is the aggregate at `(r, k)` divided by the
    divisor of row `r`, times `Wl` at `(j, k)`; term `k` of `S₂` is the feature at `(r, k)` times `Wr` at `(j, k)`. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = layerMax (Ideal.ofBits .f32 0x00000000#32) (val_main_v13 (F := Ideal) x0 x1) x0 (val_main_v19 (F := Ideal) x1) x2 x3 x4 := by
  funext i
  obtain ⟨r, j, rfl⟩ : ∃ (r : Fin 100000) (j : Fin 128), i = ix2 r j := ⟨i 0, i 1, eq_ix2 i⟩
  show _ = max (layerAt _ _ _ _ _ _ r j) _
  unfold layerAt
  -- the pointwise operations and the two contractions at `(r, j)`, the bias read at `j`, the splat read as its word
  rw [val_main_v31_apply, val_main_v30_apply, val_main_v27_apply, val_main_v24_apply, val_main_v29_apply, val_main_v26_apply,
    val_main_v25_apply, val_main_call0_v0_apply, val_main_call0_cst_apply, idx2526, Ideal.maximumf_def, Ideal.addf_def,
    Ideal.addf_def, Ideal.ofBits_def]
  -- same bias, same word; the two sums term by term
  refine congrArg₂ max (congrArg₂ (· + ·) (congrArg₂ (· + ·) (Finset.sum_congr rfl fun k _ => ?_) rfl)
    (Finset.sum_congr rfl fun k _ => ?_)) rfl
  · -- the quotient at `(r, k)` divides by the divisor of row `r`; the transposed `Wl` at `(k, j)` is `Wl` at `(j, k)`
    rw [lidx24, ridx24, val_main_v22_apply, val_main_v21_apply, val_main_v20_apply, val_main_v23_apply, idx23, idx2021,
      Ideal.hostDivf_def]
  · -- the feature at `(r, k)`; the transposed `Wr` at `(k, j)` is `Wr` at `(j, k)`
    rw [lidx29, ridx29, val_main_v28_apply, idx28]

/-- The output: the second layer of the aggregate and divisor of the second round, on the hidden features, with no
    maximum after it.

    At `(r, j)` the program's value is `S₁ + b j + S₂` with the sums as in the first layer, the features now being the
    hidden features; again the sums are compared term by term. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v58 (F := Ideal) x0 x1 x2 x3 x4 x5 x6 x7
      = layer (val_main_v41 (F := Ideal) x0 x1 x2 x3 x4) (val_main_v31 (F := Ideal) x0 x1 x2 x3 x4) (val_main_v47 (F := Ideal) x1) x5 x6 x7 := by
  funext i
  obtain ⟨r, j, rfl⟩ : ∃ (r : Fin 100000) (j : Fin 128), i = ix2 r j := ⟨i 0, i 1, eq_ix2 i⟩
  show _ = layerAt _ _ _ _ _ _ r j
  unfold layerAt
  -- the two additions and the two contractions at `(r, j)`, the bias read at `j`
  rw [val_main_v58_apply, val_main_v55_apply, val_main_v52_apply, val_main_v57_apply, val_main_v54_apply, val_main_v53_apply,
    idx5354, Ideal.addf_def, Ideal.addf_def]
  -- same bias; the two sums term by term
  refine congrArg₂ (· + ·) (congrArg₂ (· + ·) (Finset.sum_congr rfl fun k _ => ?_) rfl) (Finset.sum_congr rfl fun k _ => ?_)
  · -- the quotient at `(r, k)` divides by the divisor of row `r`; the transposed `Wl` at `(k, j)` is `Wl` at `(j, k)`
    rw [lidx52, ridx52, val_main_v50_apply, val_main_v49_apply, val_main_v48_apply, val_main_v51_apply, idx51, idx4849,
      Ideal.hostDivf_def]
  · -- the hidden feature at `(r, k)`; the transposed `Wr` at `(k, j)` is `Wr` at `(j, k)`
    rw [lidx57, ridx57, val_main_v56_apply, idx56]

end Cert.RefLayers
end
-- ==== Proof.KernelValue.lean ====
/-
  The idealized kernel program's result is the reference's result, as one function of the eight arguments.

  After the first launch the output array is the scaled layer of the first aggregate, the features and the reciprocal
  column, rectified. The column's entry of row `r` is `1 / d r` with `d r = max (deg r) 1`, which is not zero, and on the
  extended reals `x · (1 / y) = x / y` for every `x` once `y ≠ 0`: so the scaled layer is the divided layer, which is the
  reference's hidden layer. The host then aggregates that hidden layer exactly as the reference does, and the second
  launch applies the same layer, unrectified, to it: the reference's result.
-/
import proofs.«130161_j21337397527225_2_alg».proof.Proof.Blocks
import proofs.«130161_j21337397527225_2_alg».proof.Proof.Boundary
import proofs.«130161_j21337397527225_2_alg».proof.Proof.RefLayers

set_option maxRecDepth 16384

noncomputable section

namespace Cert.KernelIdeal.Outcome

open Cert.KernelIdeal Cert.KernelIdeal.Gen Idealize.ShloMosaic Idealize.ShloMosaic.TcCoe Idealize.ShloMosaic.ValueIdx
open Idealize.SL.Sem Cert.ReferenceIdeal.Read Cert.MeanLayer Cert.KernelIdeal.Boundary

variable (m : (ℓ : Loc nD τ sig) → Buf (Elt Ideal) ℓ) (ρ : Dev nD → PrngReg)

/-- After the first launch its output array holds the reference's hidden layer. -/
theorem hidden (c : Dev nD) :
    W2 m ρ c (Proc.devRef .tc main_v23) = val_main_v31 (F := Ideal) (a0 m c) (a1 m c) (a2 m c) (a3 m c) (a4 m c) := by
  refine ((W2_arr m ρ c 6).trans (Blocks.final0 (V1 m ρ) c)).trans ?_
  refine (Blocks.G0_of (V1 m ρ) c (val_main_v13 (F := Ideal) (a0 m c) (a1 m c)) (a0 m c) (V1 m ρ c main_v12) (a2 m c) (a3 m c) (a4 m c)
    (V1_agg m ρ c) (V1_arg0 m ρ c) rfl (V1_arg2 m ρ c) (V1_arg3 m ρ c) (V1_arg4 m ρ c)).trans ?_
  rw [Cert.RefLayers.hidden_eq]
  funext i
  unfold layerMax
  rw [scaledAt_eq_layerAt (val_main_v13 (F := Ideal) (a0 m c) (a1 m c)) (a0 m c) (V1 m ρ c main_v12)
    (val_main_v19 (F := Ideal) (a1 m c)) (a2 m c) (a3 m c) (a4 m c) (inv_entry m ρ c) (divisor_ne_zero (a1 m c)) (i 0) (i 1)]

/-- After the second launch the result array holds the reference's result. -/
theorem result (c : Dev nD) :
    W4 m ρ c (Proc.devRef .tc main_v34)
      = val_main_v58 (F := Ideal) (a0 m c) (a1 m c) (a2 m c) (a3 m c) (a4 m c) (a5 m c) (a6 m c) (a7 m c) := by
  refine ((W4_arr m ρ c 6).trans (Blocks.final1 (V3 m ρ) c)).trans ?_
  refine (Blocks.G1_of (V3 m ρ) c (val_main_v41 (F := Ideal) (a0 m c) (a1 m c) (a2 m c) (a3 m c) (a4 m c))
    (val_main_v31 (F := Ideal) (a0 m c) (a1 m c) (a2 m c) (a3 m c) (a4 m c)) (V1 m ρ c main_v12) (a5 m c) (a6 m c) (a7 m c)
    (V3_agg m ρ c (hidden m ρ c)) ((V3_feat m ρ c).trans (hidden m ρ c)) (V3_inv m ρ c) (V3_arg5 m ρ c) (V3_arg6 m ρ c)
    (V3_arg7 m ρ c)).trans ?_
  rw [Cert.RefLayers.out_eq]
  funext i
  unfold layer
  rw [divisor_again]
  exact scaledAt_eq_layerAt (val_main_v41 (F := Ideal) (a0 m c) (a1 m c) (a2 m c) (a3 m c) (a4 m c))
    (val_main_v31 (F := Ideal) (a0 m c) (a1 m c) (a2 m c) (a3 m c) (a4 m c)) (V1 m ρ c main_v12)
    (val_main_v19 (F := Ideal) (a1 m c)) (a5 m c) (a6 m c) (a7 m c) (inv_entry m ρ c) (divisor_ne_zero (a1 m c)) (i 0) (i 1)

end Cert.KernelIdeal.Outcome

end
-- ==== Proof.lean ====
/-
  Two-layer mean aggregation over a graph: the kernel program against its reference, on the extended reals.

  Both programs aggregate node features along the edges (a gather at the sources, a scatter-sum at the destinations),
  normalise each row by the clamped in-degree `d = max (deg) 1`, and apply `agg · Wlᵀ + b + feat · Wrᵀ`, rectified after
  the first layer. They differ in one place: the reference divides the aggregate by `d`, the kernel program multiplies
  it by the reciprocal column `1 / d` inside its dense launches. On the extended reals `x / y = x · y⁻¹` for `y ≠ 0` and
  `1 / y = y⁻¹`, and `d ≥ 1`, so the two agree for every aggregate, finite or not: the precondition is never opened.

  The three frame claims are the programs' runs with the results dropped. The idealization rewrote nothing, so the
  preservation claim is trivial. For the algebraic claim both programs end with the same array — the reference's last
  stage as a function of the eight arguments: the kernel program by reading its two launches block by block
  (Proof/Body, Proof/Blocks), its host operations through the reference's own stages (Proof/Boundary) and the law above
  (Proof/Layer, Proof/KernelValue); the reference by its run read index by index (Proof/RefLayers).
-/
import proofs.«130161_j21337397527225_2_alg».proof.Defs
import proofs.«130161_j21337397527225_2_alg».proof.Proof.Gen.Kernel
import proofs.«130161_j21337397527225_2_alg».proof.Proof.Gen.Kernel.Frame
import proofs.«130161_j21337397527225_2_alg».proof.Proof.Gen.KernelIdeal
import proofs.«130161_j21337397527225_2_alg».proof.Proof.Gen.KernelIdeal.Frame
import proofs.«130161_j21337397527225_2_alg».proof.Proof.Gen.ReferenceIdeal
import proofs.«130161_j21337397527225_2_alg».proof.Proof.Gen.Pre_finite_inputs
import proofs.«130161_j21337397527225_2_alg».proof.Proof.Gen.ReferenceIdeal.Run
import proofs.«130161_j21337397527225_2_alg».proof.Proof.Gen.ReferenceIdeal.Read
import proofs.«130161_j21337397527225_2_alg».proof.Proof.KernelRun
import proofs.«130161_j21337397527225_2_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the reference's last stage of those arguments:
    the kernel program by `Outcome.result`, the reference by its run, its arguments rewritten to the kernel program's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v58 (F := Ideal) (Cert.KernelIdeal.Boundary.a0 m c)
    (Cert.KernelIdeal.Boundary.a1 m c) (Cert.KernelIdeal.Boundary.a2 m c) (Cert.KernelIdeal.Boundary.a3 m c)
    (Cert.KernelIdeal.Boundary.a4 m c) (Cert.KernelIdeal.Boundary.a5 m c) (Cert.KernelIdeal.Boundary.a6 m c)
    (Cert.KernelIdeal.Boundary.a7 m c), ?_, ?_⟩
  · exact (θ_run Cert.KernelIdeal.defs _ _).mono
      (fun r h c => ⟨(h c).1.trans (Cert.KernelIdeal.Outcome.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
